-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S128x128 : Shape := ⟨2, ![128, 128]⟩
abbrev S256x4 : Shape := ⟨2, ![256, 4]⟩
abbrev S4 : Shape := ⟨1, ![4]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S256x4 : S_.BroadcastsInDim S256x4 (![] : Fin 0 → Fin S256x4.rank)
  reducesTo_S256x4_S_d0_1 : S256x4.ReducesTo [0, 1] S_
  bcast_S_S4 : S_.BroadcastsInDim S4 (![] : Fin 0 → Fin S4.rank)
  reducesTo_S4_S_d0 : S4.ReducesTo [0] S_

variable [Facts]

def fn_part1 {F : FTy → Type} [FloatOps F] (main_v13 : IVec S_ 1) (main_v16 : IVec S4 1) : IVec S_ 1 :=
  let main_c_5 : IVec S_ 1 := constantI S_ 1 1#1
  let main_v17 : IVec S_ 1 := (fun x v => Host.reduce IntOp.andi x v reducesTo_S4_S_d0 h_S_) main_v16 main_c_5
  let main_v18 : IVec S_ 1 := andi main_v13 main_v17
  main_v18

def fn {F : FTy → Type} [FloatOps F] (main_arg0 : FVec F S8192x128 .f32) (main_arg1 : FVec F S128x128 .f32) (main_arg2 : FVec F S256x4 .f32) (main_arg3 : FVec F S4 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S256x4 .f32 := Host.absf main_arg2
  let main_cst_2 : FVec F S_ .f32 := constant S_ .f32 0x7F800000#32
  let main_v10 : FVec F S256x4 .f32 := broadcastInDim S256x4 ![] bcast_S_S256x4 main_cst_2
  let main_v11 : IVec S256x4 1 := cmpf .olt main_v9 main_v10
  let main_c_3 : IVec S_ 1 := constantI S_ 1 1#1
  let main_v12 : IVec S_ 1 := (fun x v => Host.reduce IntOp.andi x v reducesTo_S256x4_S_d0_1 h_S_) main_v11 main_c_3
  let main_v13 : IVec S_ 1 := andi main_v8 main_v12
  let main_v14 : FVec F S4 .f32 := Host.absf main_arg3
  let main_cst_4 : FVec F S_ .f32 := constant S_ .f32 0x7F800000#32
  let main_v15 : FVec F S4 .f32 := broadcastInDim S4 ![] bcast_S_S4 main_cst_4
  let main_v16 : IVec S4 1 := cmpf .olt main_v14 main_v15
  fn_part1 (F := F) main_v13 main_v16
-- ==== Kernel.lean ====
abbrev S8192x128 : Shape := ⟨2, ![8192, 128]⟩
abbrev S128x128 : Shape := ⟨2, ![128, 128]⟩
abbrev S256x4 : Shape := ⟨2, ![256, 4]⟩
abbrev S4 : Shape := ⟨1, ![4]⟩
abbrev S128x4 : Shape := ⟨2, ![128, 4]⟩
abbrev S1x4 : Shape := ⟨2, ![1, 4]⟩
abbrev S1x512 : Shape := ⟨2, ![1, 512]⟩
abbrev S1x128x1x4 : Shape := ⟨4, ![1, 128, 1, 4]⟩
abbrev S1x128x128x4 : Shape := ⟨4, ![1, 128, 128, 4]⟩
abbrev S128x512 : Shape := ⟨2, ![128, 512]⟩
abbrev S8192x512 : Shape := ⟨2, ![8192, 512]⟩
abbrev S2048x128 : Shape := ⟨2, ![2048, 128]⟩
abbrev S2048x512 : Shape := ⟨2, ![2048, 512]⟩
abbrev S8192x128x4 : Shape := ⟨3, ![8192, 128, 4]⟩

abbrev nBuf : Space → Nat
  | .hbm => 16
  | .vmem => 6
  | .smem => 0
  | _ => 0

abbrev bufTy : (tb : Table) → Fin (tcTables nBuf tb) → BufTy
  | .hbm, ⟨0, _⟩ => ⟨S8192x128, .f32⟩
  | .hbm, ⟨1, _⟩ => ⟨S128x128, .f32⟩
  | .hbm, ⟨2, _⟩ => ⟨S256x4, .f32⟩
  | .hbm, ⟨3, _⟩ => ⟨S4, .f32⟩
  | .hbm, ⟨4, _⟩ => ⟨S128x4, .f32⟩
  | .hbm, ⟨5, _⟩ => ⟨S128x4, .f32⟩
  | .hbm, ⟨6, _⟩ => ⟨S128x4, .f32⟩
  | .hbm, ⟨7, _⟩ => ⟨S1x4, .f32⟩
  | .hbm, ⟨8, _⟩ => ⟨S128x4, .f32⟩
  | .hbm, ⟨9, _⟩ => ⟨S128x4, .f32⟩
  | .hbm, ⟨10, _⟩ => ⟨S1x512, .f32⟩
  | .hbm, ⟨11, _⟩ => ⟨S1x128x1x4, .f32⟩
  | .hbm, ⟨12, _⟩ => ⟨S1x128x128x4, .f32⟩
  | .hbm, ⟨13, _⟩ => ⟨S128x512, .f32⟩
  | .hbm, ⟨14, _⟩ => ⟨S8192x512, .f32⟩
  | .hbm, ⟨15, _⟩ => ⟨S8192x128x4, .f32⟩
  | .local _ .vmem, ⟨0, _⟩ => ⟨S2048x128, .f32⟩
  | .local _ .vmem, ⟨1, _⟩ => ⟨S2048x128, .f32⟩
  | .local _ .vmem, ⟨2, _⟩ => ⟨S128x512, .f32⟩
  | .local _ .vmem, ⟨3, _⟩ => ⟨S1x512, .f32⟩
  | .local _ .vmem, ⟨4, _⟩ => ⟨S2048x512, .f32⟩
  | .local _ .vmem, ⟨5, _⟩ => ⟨S2048x512, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S256x4_S128x4_0_0 : S256x4.Slices ![0, 0] S128x4
  slices_S256x4_S128x4_128_0 : S256x4.Slices ![128, 0] S128x4
  bcast_S4_S1x4_1 : S4.BroadcastsInDim S1x4 (![1] : Fin 1 → Fin S1x4.rank)
  bcast_S1x4_S128x4_0_1 : S1x4.BroadcastsInDim S128x4 (![0, 1] : Fin 2 → Fin S128x4.rank)
  shapeCasts_S128x4_S1x512 : S128x4.ShapeCasts S1x512
  shapeCasts_S128x4_S1x128x1x4 : S128x4.ShapeCasts S1x128x1x4
  bcast_S1x128x1x4_S1x128x128x4_0_1_2_3 : S1x128x1x4.BroadcastsInDim S1x128x128x4 (![0, 1, 2, 3] : Fin 4 → Fin S1x128x128x4.rank)
  shapeCasts_S1x128x128x4_S128x512 : S1x128x128x4.ShapeCasts S128x512
  inb_S2048x128_S2048x128_0_0 : ∀ a, (![0, 0] : Fin 2 → Nat) a + S2048x128.size a ≤ S2048x128.size a
  h_S2048x128 : 0 < S2048x128.numel
  bitsLt_bf16_f32 : FTy.bits .bf16 < FTy.bits .f32
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2048x512 : S1x512.Broadcasts S2048x512
  inb_S2048x512_S2048x512_0_0 : ∀ a, (![0, 0] : Fin 2 → Nat) a + S2048x512.size a ≤ S2048x512.size a
  h_S2048x512 : 0 < S2048x512.numel
  shapeCasts_S8192x512_S8192x128x4 : S8192x512.ShapeCasts S8192x128x4
  dot_S128x128_S128x4_S128x4_0_0_1_1_n_n_wf : DotDims.WF S128x128 S128x4 S128x4 [0] [0] [1] [1] [] []
  dot_S2048x128_S128x512_S2048x512_1_0_0_1_n_n_wf : DotDims.WF S2048x128 S128x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S8192x128.size a
  hwx0_0 : ∀ i : grid0.Coords, EltTy.bits .f32 = 32 ∨ (Rect.block (s := S8192x128) S2048x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x512.size a ≤ S128x512.size a
  hwx0_1 : ∀ i : grid0.Coords, EltTy.bits .f32 = 32 ∨ (Rect.block (s := S128x512) S128x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x512.size a ≤ S8192x512.size a
  hwx0_3 : ∀ i : grid0.Coords, EltTy.bits .f32 = 32 ∨ (Rect.block (s := S8192x512) S2048x512.size (cc0_transform_3 i) (hinb0_3 i)).WholeWords (EltTy.packing .f32)

variable [Facts₀]

def dot_S128x128_S128x4_S128x4_0_0_1_1_n_n : DotDims S128x128 S128x4 S128x4 where
  lhsContracting := [0]
  rhsContracting := [0]
  lhsNonContracting := [1]
  rhsNonContracting := [1]
  lhsBatch := []
  rhsBatch := []
  wf := dot_S128x128_S128x4_S128x4_0_0_1_1_n_n_wf
def dot_S2048x128_S128x512_S2048x512_1_0_0_1_n_n : DotDims S2048x128 S128x512 S2048x512 where
  lhsContracting := [1]
  rhsContracting := [0]
  lhsNonContracting := [0]
  rhsNonContracting := [1]
  lhsBatch := []
  rhsBatch := []
  wf := dot_S2048x128_S128x512_S2048x512_1_0_0_1_n_n_wf

abbrev win0_0 : Pipeline.Window sig grid0 :=
  Pipeline.Window.ofSpec (Memref.whole main_arg0) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S128x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S2048x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x128 : Shape := ⟨2, ![8192, 128]⟩
abbrev S128x128 : Shape := ⟨2, ![128, 128]⟩
abbrev S256x4 : Shape := ⟨2, ![256, 4]⟩
abbrev S4 : Shape := ⟨1, ![4]⟩
abbrev S128x4 : Shape := ⟨2, ![128, 4]⟩
abbrev S8192x4 : Shape := ⟨2, ![8192, 4]⟩
abbrev S8192x1x4 : Shape := ⟨3, ![8192, 1, 4]⟩
abbrev S1x128x4 : Shape := ⟨3, ![1, 128, 4]⟩
abbrev S8192x128x4 : Shape := ⟨3, ![8192, 128, 4]⟩
abbrev S1x1x4 : Shape := ⟨3, ![1, 1, 4]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S128x128, .f32⟩
  | .hbm, ⟨2, _⟩ => ⟨S256x4, .f32⟩
  | .hbm, ⟨3, _⟩ => ⟨S4, .f32⟩
  | .hbm, ⟨4, _⟩ => ⟨S128x4, .f32⟩
  | .hbm, ⟨5, _⟩ => ⟨S8192x4, .f32⟩
  | .hbm, ⟨6, _⟩ => ⟨S128x4, .f32⟩
  | .hbm, ⟨7, _⟩ => ⟨S128x4, .f32⟩
  | .hbm, ⟨8, _⟩ => ⟨S8192x1x4, .f32⟩
  | .hbm, ⟨9, _⟩ => ⟨S1x128x4, .f32⟩
  | .hbm, ⟨10, _⟩ => ⟨S8192x128x4, .f32⟩
  | .hbm, ⟨11, _⟩ => ⟨S8192x128x4, .f32⟩
  | .hbm, ⟨12, _⟩ => ⟨S8192x128x4, .f32⟩
  | .hbm, ⟨13, _⟩ => ⟨S1x1x4, .f32⟩
  | .hbm, ⟨14, _⟩ => ⟨S8192x128x4, .f32⟩
  | .hbm, ⟨15, _⟩ => ⟨S8192x128x4, .f32⟩
  | .hbm, ⟨16, _⟩ => ⟨S_, .f32⟩
  | .hbm, ⟨17, _⟩ => ⟨S8192x128x4, .f32⟩
  | .hbm, ⟨18, _⟩ => ⟨S8192x128x4, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_call0_cst : Ref sig .tc := ⟨.hbm, 16, rfl⟩
abbrev main_call0_v0 : Ref sig .tc := ⟨.hbm, 17, rfl⟩
abbrev main_v12 : Ref sig .tc := ⟨.hbm, 18, rfl⟩

abbrev nD : Nat := 1
abbrev τ : Topo := Topo.v7x

variable {F : FTy → Type} [FloatOps F]

class Facts₀ : Prop where
  slices_S256x4_S128x4_0_0 : S256x4.Slices ![0, 0] S128x4
  slices_S256x4_S128x4_128_0 : S256x4.Slices ![128, 0] S128x4
  bcast_S8192x4_S8192x1x4_0_2 : S8192x4.BroadcastsInDim S8192x1x4 (![0, 2] : Fin 2 → Fin S8192x1x4.rank)
  bcast_S128x4_S1x128x4_1_2 : S128x4.BroadcastsInDim S1x128x4 (![1, 2] : Fin 2 → Fin S1x128x4.rank)
  bcast_S8192x1x4_S8192x128x4_0_1_2 : S8192x1x4.BroadcastsInDim S8192x128x4 (![0, 1, 2] : Fin 3 → Fin S8192x128x4.rank)
  bcast_S1x128x4_S8192x128x4_0_1_2 : S1x128x4.BroadcastsInDim S8192x128x4 (![0, 1, 2] : Fin 3 → Fin S8192x128x4.rank)
  bcast_S4_S1x1x4_2 : S4.BroadcastsInDim S1x1x4 (![2] : Fin 1 → Fin S1x1x4.rank)
  bcast_S1x1x4_S8192x128x4_0_1_2 : S1x1x4.BroadcastsInDim S8192x128x4 (![0, 1, 2] : Fin 3 → Fin S8192x128x4.rank)
  bcast_S_S8192x128x4 : S_.BroadcastsInDim S8192x128x4 (![] : Fin 0 → Fin S8192x128x4.rank)
  dot_S8192x128_S128x4_S8192x4_1_0_0_1_n_n_wf : DotDims.WF S8192x128 S128x4 S8192x4 [1] [0] [0] [1] [] []
  dot_S128x128_S128x4_S128x4_0_0_1_1_n_n_wf : DotDims.WF S128x128 S128x4 S128x4 [0] [0] [1] [1] [] []

variable [Facts₀]

def dot_S8192x128_S128x4_S8192x4_1_0_0_1_n_n : DotDims S8192x128 S128x4 S8192x4 where
  lhsContracting := [1]
  rhsContracting := [0]
  lhsNonContracting := [0]
  rhsNonContracting := [1]
  lhsBatch := []
  rhsBatch := []
  wf := dot_S8192x128_S128x4_S8192x4_1_0_0_1_n_n_wf
def dot_S128x128_S128x4_S128x4_0_0_1_1_n_n : DotDims S128x128 S128x4 S128x4 where
  lhsContracting := [0]
  rhsContracting := [0]
  lhsNonContracting := [1]
  rhsNonContracting := [1]
  lhsBatch := []
  rhsBatch := []
  wf := dot_S128x128_S128x4_S128x4_0_0_1_1_n_n_wf

class Facts : Prop extends Facts₀ where

variable [Facts]
-- ==== Proof.Spec.lean ====
/-
  The result of the layer, as one function of the four argument arrays.

  The arguments are a node matrix `z` (8192 × 128), a feature matrix `x` (128 × 128, used transposed), a weight
  matrix `W` (256 × 4) whose first 128 rows act on `z` and whose last 128 rows act on `x`, and a bias `b` (4 entries).
  Entry `(n, j, h)` of the result is

      max ( Σ_k z(n,k)·W(k,h)  +  Σ_k x(k,j)·W(128+k,h)  +  b(h) ,  0 ).

  Both programs compute it; they differ only in how the three summands are bracketed, and addition of extended reals
  is associative (`bracket`), so no finiteness of the inputs is used.
-/
import Idealize.ShloMosaic.Lib.ValueIdx
import Idealize.ShloMosaic.PureOps.Ideal.Laws

noncomputable section

namespace Cert.Layer

open Idealize.ShloMosaic Idealize.ShloMosaic.ValueIdx

/-- Row `k` of the upper half of the weight matrix (the rows that multiply `z`). -/
abbrev upper (k : Fin 128) : Fin 256 := ⟨k.val, by have := k.isLt; omega⟩
/-- Row `k` of the lower half of the weight matrix (the rows that multiply `x`). -/
abbrev lower (k : Fin 128) : Fin 256 := ⟨128 + k.val, by have := k.isLt; omega⟩

/-- The node part: row `n` of `z` against column `h` of the upper half of `W`. -/
def nodePart (z : (⟨2, ![8192, 128]⟩ : Shape).Idx → EReal) (W : (⟨2, ![256, 4]⟩ : Shape).Idx → EReal) (n : Fin 8192) (h : Fin 4) : EReal :=
  ∑ k : Fin 128, z (ix2 n k) * W (ix2 (upper k) h)

/-- The feature part: column `j` of `x` against column `h` of the lower half of `W`. -/
def featPart (x : (⟨2, ![128, 128]⟩ : Shape).Idx → EReal) (W : (⟨2, ![256, 4]⟩ : Shape).Idx → EReal) (j : Fin 128) (h : Fin 4) : EReal :=
  ∑ k : Fin 128, x (ix2 k j) * W (ix2 (lower k) h)

/-- The layer's result at `(n, j, h)`: the two parts and the bias added, then clamped below at zero (the zero is kept
    as the word both programs print). -/
def result (z : (⟨2, ![8192, 128]⟩ : Shape).Idx → EReal) (x : (⟨2, ![128, 128]⟩ : Shape).Idx → EReal)
    (W : (⟨2, ![256, 4]⟩ : Shape).Idx → EReal) (b : (⟨1, ![4]⟩ : Shape).Idx → EReal) :
    (⟨3, ![8192, 128, 4]⟩ : Shape).Idx → EReal := fun i =>
  max (nodePart z W (i 0) (i 2) + featPart x W (i 1) (i 2) + b (ix1 (i 2))) (Ideal.ofBits .f32 0x00000000#32)

/-- The same result laid out with the last two axes flattened: column `q = 4·j + h` of a 8192 × 512 matrix, with the
    bias added to the feature part first (the bracketing of the program that prepares one bias row per column). -/
def flat (z : (⟨2, ![8192, 128]⟩ : Shape).Idx → EReal) (x : (⟨2, ![128, 128]⟩ : Shape).Idx → EReal)
    (W : (⟨2, ![256, 4]⟩ : Shape).Idx → EReal) (b : (⟨1, ![4]⟩ : Shape).Idx → EReal) :
    (⟨2, ![8192, 512]⟩ : Shape).Idx → EReal := fun i =>
  max (nodePart z W (i 0) ⟨(i 1).val % 4, Nat.mod_lt _ (by decide)⟩
      + (featPart x W ⟨(i 1).val / 4, by have h : (i 1).val < 512 := (i 1).isLt; omega⟩ ⟨(i 1).val % 4, Nat.mod_lt _ (by decide)⟩
        + b (ix1 ⟨(i 1).val % 4, Nat.mod_lt _ (by decide)⟩)))
    (Ideal.ofBits .f32 0x00000000#32)

/-- The one law joining the two bracketings: addition of extended reals is associative. -/
theorem bracket (p q r : EReal) : p + (q + r) = p + q + r := (add_assoc p q r).symm

/-- The flattened result at column `4·j + h` is the result at `(n, j, h)`. -/
theorem flat_apply (z : (⟨2, ![8192, 128]⟩ : Shape).Idx → EReal) (x : (⟨2, ![128, 128]⟩ : Shape).Idx → EReal)
    (W : (⟨2, ![256, 4]⟩ : Shape).Idx → EReal) (b : (⟨1, ![4]⟩ : Shape).Idx → EReal)
    (n : Fin 8192) (j : Fin 128) (h : Fin 4) (q : Fin 512) (hq : q.val = j.val * 4 + h.val) :
    flat z x W b (ix2 n q) = result z x W b (ix3 n j h) := by
  have hh : (⟨q.val % 4, Nat.mod_lt _ (by decide)⟩ : Fin 4) = h := Fin.ext (by have := h.isLt; show q.val % 4 = h.val; omega)
  have hj : (⟨q.val / 4, by have := q.isLt; omega⟩ : Fin 128) = j := Fin.ext (by have := h.isLt; show q.val / 4 = j.val; omega)
  show max (nodePart z W n ⟨q.val % 4, _⟩ + (featPart x W ⟨q.val / 4, _⟩ ⟨q.val % 4, _⟩ + b (ix1 ⟨q.val % 4, _⟩))) _
    = max (nodePart z W n h + featPart x W j h + b (ix1 h)) _
  rw [hh, hj, bracket]

end Cert.Layer

end
-- ==== Proof.Reference.lean ====
/-
  The reference program computes the layer's result.

  Read one operation at a time, the reference forms the node part by a product of `z` with the upper half of `W`, the
  feature part by a product that contracts the first axis of `x` with the lower half of `W`, spreads the first over
  the middle axis and the second over the first axis, adds them, adds the bias spread over both leading axes, and clamps
  below at zero: entry `(n, j, h)` is the specification's `result` as written, with no rearrangement.
-/
import proofs.«107261_j12541304504449_2_alg».proof.Proof.Gen.ReferenceIdeal.Read
import proofs.«107261_j12541304504449_2_alg».proof.Proof.Spec

noncomputable section

namespace Cert.ReferenceIdeal.Bridge

open Cert.ReferenceIdeal Cert.ReferenceIdeal.Read Idealize.ShloMosaic Idealize.ShloMosaic.ValueIdx Cert.Layer

/-- The reference's result array, as a function of the four arguments, is the layer's `result`. -/
theorem reference_eq (x0 : (⟨2, ![8192, 128]⟩ : Shape).Idx → EReal) (x1 : (⟨2, ![128, 128]⟩ : Shape).Idx → EReal)
    (x2 : (⟨2, ![256, 4]⟩ : Shape).Idx → EReal) (x3 : (⟨1, ![4]⟩ : Shape).Idx → EReal) :
    val_main_v12 (F := Ideal) x0 x1 x2 x3 = result x0 x1 x2 x3 := by
  funext i
  obtain ⟨n, j, h, rfl⟩ : ∃ (n : Fin 8192) (j : Fin 128) (h : Fin 4), i = ix3 n j h := ⟨i 0, i 1, i 2, eq_ix3 i⟩
  rw [val_main_v12_apply, val_main_v11_apply, val_main_v8_apply, val_main_v6_apply, val_main_v4_apply, val_main_v1_apply,
    val_main_v7_apply, val_main_v5_apply, val_main_v3_apply, val_main_v10_apply, val_main_v9_apply,
    val_main_call0_v0_apply, val_main_call0_cst_apply]
  simp only [val_main_v0_apply, val_main_v2_apply, Ideal.maximumf_def, Ideal.addf_def, Ideal.ofBits_def]
  have e1 : ∀ k : Fin 128, lidx_main_v1 (idx_main_v4 (idx_main_v6 (ix3 n j h))) k = ix2 n k := fun k =>
    funext fun a => Fin.ext (by match a with | ⟨0, _⟩ => rfl | ⟨1, _⟩ => rfl)
  have e2 : ∀ k : Fin 128, idx_main_v0 (ridx_main_v1 (idx_main_v4 (idx_main_v6 (ix3 n j h))) k) = ix2 (upper k) h := fun k =>
    funext fun a => Fin.ext (by match a with | ⟨0, _⟩ => rfl | ⟨1, _⟩ => rfl)
  have e3 : ∀ k : Fin 128, lidx_main_v3 (idx_main_v5 (idx_main_v7 (ix3 n j h))) k = ix2 k j := fun k =>
    funext fun a => Fin.ext (by match a with | ⟨0, _⟩ => rfl | ⟨1, _⟩ => rfl)
  have e4 : ∀ k : Fin 128, idx_main_v2 (ridx_main_v3 (idx_main_v5 (idx_main_v7 (ix3 n j h))) k) = ix2 (lower k) h := fun k =>
    funext fun a => Fin.ext (by match a with | ⟨0, _⟩ => rfl | ⟨1, _⟩ => rfl)
  have e5 : idx_main_v9 (idx_main_v10 (ix3 n j h)) = ix1 h :=
    funext fun a => Fin.ext (by match a with | ⟨0, _⟩ => rfl)
  simp only [e1, e2, e3, e4, e5]
  rfl

end Cert.ReferenceIdeal.Bridge

end
-- ==== Proof.LibMatmulZero.lean ====
/-
  A matrix product into a zero accumulator, read at one output index, at the extended reals.

  `matmul_zero_apply`: for a product that contracts ONE axis of extent `K`, the entry at an output index `j` is the sum
  over `k : Fin K` of the left operand at `li k` times the right operand at `ri k`, for ANY naming `li`, `ri` of the two
  operand indices whose coordinates are the product's own at `j` and the contracted position `k` (two per-axis
  hypotheses, closed at literal shapes by the dimension numbers' facts). It re-indexes the product's sum over its
  contraction shape to a sum over `Fin K`, so that a value proof can state a layer as `∑ k, a k * W k j`.
-/
import Idealize.ShloMosaic.Lib.ValueIdx
import Idealize.ShloMosaic.PureOps.Ideal.Laws

noncomputable section

namespace Cert.LibMatmulZero

open Idealize.ShloMosaic Idealize.ShloMosaic.ValueIdx

/-- A product contracting ONE axis of extent `K`, into the zero accumulator, read at an output index `j`: the sum over
    `k` of the left operand at `li k` times the right at `ri k`, for any naming `li`, `ri` of the operand indices whose
    coordinates are the product's own (`hl`, `hr'`). -/
theorem matmul_zero_apply {sl sr so : Shape} {φ₁ φ₂ : FTy} (d : DotDims sl sr so) (K : Nat) (hr : d.contr.rank = 1)
    (hs : d.contr.size ⟨0, by omega⟩ = K) (A : FVec Ideal sl φ₁) (B : FVec Ideal sr φ₂) (j : so.Idx)
    (li : Fin K → sl.Idx) (ri : Fin K → sr.Idx)
    (hl : ∀ k a, (d.lhsIdx j ((contrEquiv1 d K hr hs).symm k) a).val = (li k a).val)
    (hr' : ∀ k a, (d.rhsIdx j ((contrEquiv1 d K hr hs).symm k) a).val = (ri k a).val) :
    FloatOps.matmul d none A B (constant so .f32 0x00000000#32) j = ∑ k : Fin K, A (li k) * B (ri k) := by
  refine (Ideal.matmul_constant_zero_apply d none A B j).trans ?_
  rw [← Equiv.sum_comp (contrEquiv1 d K hr hs).symm]
  refine Finset.sum_congr rfl fun k _ => ?_
  rw [show d.lhsIdx j ((contrEquiv1 d K hr hs).symm k) = li k from funext fun a => Fin.ext (hl k a),
    show d.rhsIdx j ((contrEquiv1 d K hr hs).symm k) = ri k from funext fun a => Fin.ext (hr' k a)]

end Cert.LibMatmulZero

end
-- ==== Proof.LibMatmulRows.lean ====
/-
  A matrix product contracting the one shared axis, into a zero accumulator, read at an index, at the ideal values.

  For an `a × b` left operand and a `b × c` right operand (dimension numbers: contract the left's axis 1 with the
  right's axis 0, no batch axes), entry `(p, n)` of the product is `Σ_k A(p, k) · B(k, n)`: the sum of the exact
  products, the zero the accumulator starts from adding nothing.
-/
import Idealize.ShloMosaic.Lib.ValueIdx
import Idealize.ShloMosaic.PureOps.Ideal.Laws
import proofs.«107261_j12541304504449_2_alg».proof.Proof.LibMatmulZero

noncomputable section

namespace Cert.LibMatmulRows

open Idealize.ShloMosaic Idealize.ShloMosaic.ValueIdx

variable {a b c : ℕ}

/-- The dimension numbers of an `a × b` by `b × c` product over the shared axis. -/
abbrev rowsDims (wf : DotDims.WF ⟨2, ![a, b]⟩ ⟨2, ![b, c]⟩ ⟨2, ![a, c]⟩ [1] [0] [0] [1] [] []) :
    DotDims ⟨2, ![a, b]⟩ ⟨2, ![b, c]⟩ ⟨2, ![a, c]⟩ where
  lhsContracting := [1]
  rhsContracting := [0]
  lhsNonContracting := [0]
  rhsNonContracting := [1]
  lhsBatch := []
  rhsBatch := []
  wf := wf

/-- THE PRODUCT READ AT `(p, n)`, for the record `rowsDims`. -/
theorem rowsDims_matmul_apply {φ₁ φ₂ : FTy} (wf : DotDims.WF ⟨2, ![a, b]⟩ ⟨2, ![b, c]⟩ ⟨2, ![a, c]⟩ [1] [0] [0] [1] [] [])
    (A : FVec Ideal ⟨2, ![a, b]⟩ φ₁) (B : FVec Ideal ⟨2, ![b, c]⟩ φ₂) (p : Fin a) (n : Fin c) :
    FloatOps.matmul (rowsDims wf) none A B (constant ⟨2, ![a, c]⟩ .f32 0x00000000#32) (ix2 p n)
      = ∑ k : Fin b, A (ix2 p k) * B (ix2 k n) := by
  refine Cert.LibMatmulZero.matmul_zero_apply (rowsDims wf) b rfl rfl A B (ix2 p n) (fun k => ix2 p k) (fun k => ix2 k n) ?_ ?_
  · intro k ax
    match ax with
    | ⟨0, _⟩ =>
      show ((rowsDims wf).lhsIdx (ix2 p n) ((contrEquiv1 (rowsDims wf) b rfl rfl).symm k) 0).val = p.val
      unfold DotDims.lhsIdx
      rw [dif_neg (show ¬(0 : Fin 2) ∈ (rowsDims wf).lhsBatch from List.not_mem_nil),
        dif_pos (show (0 : Fin 2) ∈ (rowsDims wf).lhsNonContracting from List.mem_singleton.mpr rfl)]
      rfl
    | ⟨1, _⟩ =>
      exact ((rowsDims wf).lhsIdx_val_of_single rfl (ix2 p n) _).trans (contrEquiv1_symm_val (rowsDims wf) b rfl rfl k)
  · intro k ax
    match ax with
    | ⟨0, _⟩ =>
      exact ((rowsDims wf).rhsIdx_val_of_single rfl (ix2 p n) _).trans (contrEquiv1_symm_val (rowsDims wf) b rfl rfl k)
    | ⟨1, _⟩ =>
      show ((rowsDims wf).rhsIdx (ix2 p n) ((contrEquiv1 (rowsDims wf) b rfl rfl).symm k) 1).val = n.val
      unfold DotDims.rhsIdx
      rw [dif_neg (show ¬(1 : Fin 2) ∈ (rowsDims wf).rhsBatch from List.not_mem_nil),
        dif_pos (show (1 : Fin 2) ∈ (rowsDims wf).rhsNonContracting from List.mem_singleton.mpr rfl)]
      rfl

/-- THE PRODUCT READ AT `(p, n)`, for any dimension-number record with the six lists of such a product (each
    hypothesis is `rfl` for a record written with those literal fields, whatever proves its `wf`). -/
theorem matmul_rows_apply {φ₁ φ₂ : FTy} (d : DotDims ⟨2, ![a, b]⟩ ⟨2, ![b, c]⟩ ⟨2, ![a, c]⟩)
    (hlc : d.lhsContracting = [1]) (hrc : d.rhsContracting = [0]) (hln : d.lhsNonContracting = [0])
    (hrn : d.rhsNonContracting = [1]) (hlb : d.lhsBatch = []) (hrb : d.rhsBatch = [])
    (A : FVec Ideal ⟨2, ![a, b]⟩ φ₁) (B : FVec Ideal ⟨2, ![b, c]⟩ φ₂) (p : Fin a) (n : Fin c) :
    FloatOps.matmul d none A B (constant ⟨2, ![a, c]⟩ .f32 0x00000000#32) (ix2 p n)
      = ∑ k : Fin b, A (ix2 p k) * B (ix2 k n) := by
  obtain ⟨lc, rc, ln, rn, lb, rb, wf⟩ := d
  dsimp only at hlc hrc hln hrn hlb hrb
  subst hlc hrc hln hrn hlb hrb
  exact rowsDims_matmul_apply wf A B p n

end Cert.LibMatmulRows

end
-- ==== Proof.Body.lean ====
/-
  What the kernel body stores, entry by entry.

  At one grid point the body holds a block of 2048 rows of `z`, the whole 128 × 512 weight block and the one bias row.
  It rounds the two matrix operands to a narrower format (the identity on exact values), multiplies them into a zero
  accumulator, adds the bias row to every row, and clamps below at zero.  Entry `(r, q)` of what it stores is therefore

      max ( Σ_k a(r,k)·w(k,q) + β(0,q) , 0 ).
-/
import proofs.«107261_j12541304504449_2_alg».proof.Proof.Gen.KernelIdeal.Skeleton
import proofs.«107261_j12541304504449_2_alg».proof.Proof.LibMatmulRows
import Idealize.ShloMosaic.Lib.Pipeline.Value
import Idealize.ShloMosaic.Lib.ValueIdx

noncomputable section

namespace Cert.KernelIdeal.Body

open Cert.KernelIdeal Cert.KernelIdeal.Gen Idealize.ShloMosaic Idealize.ShloMosaic.ValueIdx

/-- The stored block at row `r` and column `q`, from the three blocks the body loads. -/
theorem stored_apply (a : Vec Ideal S2048x128 .f32) (w : Vec Ideal S128x512 .f32) (β : Vec Ideal S1x512 .f32)
    (r : Fin 2048) (q : Fin 512) :
    k0_pay1 (F := Ideal) a w β (ix2 r q)
      = max ((∑ k : Fin 128, a (ix2 r k) * w (ix2 k q)) + β (ix2 (0 : Fin 1) q)) (Ideal.ofBits .f32 0x00000000#32) := by
  unfold k0_pay1
  rw [maximumf_apply, addf_apply, broadcast_apply, shapeCast_self, shapeCast_self]
  rw [broadcastTo_apply β broadcasts_S1x512_S2048x512 (ix2 r q) (ix2 (0 : Fin 1) q)
    (fun ax => by match ax with | ⟨0, _⟩ => rfl | ⟨1, _⟩ => rfl)]
  refine congrArg₂ max (congrArg (· + β (ix2 (0 : Fin 1) q)) ?_) rfl
  exact Cert.LibMatmulRows.matmul_rows_apply dot_S2048x128_S128x512_S2048x512_1_0_0_1_n_n rfl rfl rfl rfl rfl rfl
    (truncf .bf16 a bitsLt_bf16_f32) (truncf .bf16 w bitsLt_bf16_f32) r q

end Cert.KernelIdeal.Body

end
-- ==== Proof.LibRowOps.lean ====
/-
  Row-wise operations read at an index, at the ideal values.

  * the sum of a matrix along its second axis, as a kernel's lane reduction and as the host's reduce: at row `p` it is
    the sum over `k` of the entries `(p, k)` (the host's with its initial value in front);
  * a product of an `a × b` by a `b × c` matrix contracting the one shared axis, as a kernel's matrix product into a
    zero accumulator and as the host's dot product: at `(p, n)` it is the sum over `k` of `l (p, k) * r (k, n)`;
  * "keep the entry if it is at least zero, else take the other value", as comparison and select compute it;
  * the host's broadcasts of a scalar, of a vector to a column, of a vector to a row, of a column along columns and
    of a row along rows.
-/
import Idealize.ShloMosaic.Lib.ValueIdx
import Idealize.ShloMosaic.Lib.ValueLayout
import Idealize.ShloMosaic.Lib.Pipeline.Value
import Idealize.ShloMosaic.PureOps.Ideal.Laws

namespace Cert.LibRowOps

open Idealize.ShloMosaic Idealize.ShloMosaic.ValueIdx

/-! ## Row sums -/

/-- The index a row reduction lifts `(p)` and the position `k` to is `(p, k)`. -/
theorem lift_row {a b : ℕ} (h : (⟨2, ![a, b]⟩ : Shape).Reduces [1] ⟨1, ![a]⟩) (p : Fin a) (k : Fin b) :
    h.lift (ix1 p) k = ix2 p k := by
  funext c
  apply Fin.ext
  show h.liftVal (ix1 p) k.val c = (ix2 p k c).val
  match c with
  | ⟨0, _⟩ => simp [Shape.Reduces.liftVal]
  | ⟨1, _⟩ => simp [Shape.Reduces.liftVal]

/-- A kernel's lane sum of an `a × b` block, at row `p`: the sum of the row's entries. -/
theorem multiReduction_row_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (lift_row h p k))

/-- The host's sum of an `a × b` array along its rows, at row `p`: the initial value plus the sum of the row's entries. -/
theorem hostReduceAdd_row_apply {a b : ℕ} (h' : (⟨2, ![a, b]⟩ : Shape).ReducesTo [1] ⟨1, ![a]⟩)
    (h : (⟨2, ![a, b]⟩ : Shape).Reduces [1] ⟨1, ![a]⟩) (x : (⟨2, ![a, b]⟩ : Shape).Idx → EReal) (init : EReal) (p : Fin a) :
    Ideal.hostReduceAdd h' x init (ix1 p) = init + ∑ k : Fin b, x (ix2 p k) :=
  (Ideal.hostReduceAdd_single h' h x init (ix1 p)).trans
    (congrArg (init + ·) (Finset.sum_congr rfl fun k _ => congrArg x (lift_row h p k)))

/-! ## One shared axis contracted -/

/-- The contraction's sum re-indexed by the shared axis's coordinate, when the operand indices at an output index
    `(p, n)` and a contraction position `k` are `(p, k)` and `(k, n)`. -/
theorem sum_contr {a b c : ℕ} (D : DotDims ⟨2, ![a, b]⟩ ⟨2, ![b, c]⟩ ⟨2, ![a, c]⟩) (hrk : D.contr.rank = 1)
    (hsz : D.contr.size ⟨0, by omega⟩ = b)
    (hl0 : ∀ j k, (D.lhsIdx j k (0 : Fin 2)).val = (j (0 : Fin 2)).val)
    (hl1 : ∀ j k, (D.lhsIdx j k (1 : Fin 2)).val = (k ⟨0, by omega⟩).val)
    (hr0 : ∀ j k, (D.rhsIdx j k (0 : Fin 2)).val = (k ⟨0, by omega⟩).val)
    (hr1 : ∀ j k, (D.rhsIdx j k (1 : Fin 2)).val = (j (1 : Fin 2)).val)
    (l : (⟨2, ![a, b]⟩ : Shape).Idx → EReal) (r : (⟨2, ![b, c]⟩ : Shape).Idx → EReal) (p : Fin a) (n : Fin c) :
    ∑ k : D.contr.Idx, l (D.lhsIdx (ix2 p n) k) * r (D.rhsIdx (ix2 p n) k) = ∑ k : Fin b, l (ix2 p k) * r (ix2 k n) := by
  rw [← Equiv.sum_comp (contrEquiv1 D b hrk hsz).symm]
  refine Finset.sum_congr rfl fun k _ => ?_
  have e1 : D.lhsIdx (ix2 p n) ((contrEquiv1 D b hrk hsz).symm k) = ix2 p k := by
    funext ax
    apply Fin.ext
    match ax with
    | ⟨0, _⟩ => exact hl0 _ _
    | ⟨1, _⟩ => exact (hl1 _ _).trans (contrEquiv1_symm_val D b hrk hsz k)
  have e2 : D.rhsIdx (ix2 p n) ((contrEquiv1 D b hrk hsz).symm k) = ix2 k n := by
    funext ax
    apply Fin.ext
    match ax with
    | ⟨0, _⟩ => exact (hr0 _ _).trans (contrEquiv1_symm_val D b hrk hsz k)
    | ⟨1, _⟩ => exact hr1 _ _
  rw [e1, e2]

/-! ## Keep what is at least zero -/

/-- The select on "at least the zero word": the entry itself when it is at least zero, the other value otherwise. -/
theorem select_oge_zero (v w : EReal) :
    Scalar.select (FloatOps.cmpf (F := Ideal) (φ := .f32) .oge v (Ideal.ofBits .f32 0x00000000#32)) v w
      = if (0 : EReal) ≤ v then v else w := by
  rw [Ideal.cmpf_def, Ideal.ofBits_zero_f32]
  unfold Ideal.cmp Scalar.select
  by_cases h : (0 : EReal) ≤ v
  · simp [h]
  · simp [h]

/-! ## The host's broadcasts -/

section
variable {α : Type}

/-- A scalar broadcast to any shape reads the scalar. -/
theorem broadcastInDim_scalar_apply {t : Shape} (h : (⟨0, ![]⟩ : Shape).BroadcastsInDim t (![] : Fin 0 → Fin t.rank))
    (x : (⟨0, ![]⟩ : Shape).Idx → α) (j : t.Idx) : broadcastInDim t ![] h x j = x ix0 :=
  broadcastInDim_apply _ h x j ix0 fun ax => ax.elim0

/-- A vector of `a` entries broadcast to an `a × 1` column reads, at `(p, u)`, entry `p`. -/
theorem broadcastInDim_a_a1_apply {a : ℕ} (h : (⟨1, ![a]⟩ : Shape).BroadcastsInDim ⟨2, ![a, 1]⟩ (![0] : Fin 1 → Fin 2))
    (x : (⟨1, ![a]⟩ : Shape).Idx → α) (p : Fin a) (u : Fin 1) : broadcastInDim ⟨2, ![a, 1]⟩ ![0] h x (ix2 p u) = x (ix1 p) := by
  refine broadcastInDim_apply _ h x (ix2 p u) (ix1 p) fun ax => ?_
  match ax with
  | ⟨0, _⟩ =>
    show p.val = if a = 1 then 0 else p.val
    split
    · have := p.isLt; omega
    · rfl

/-- A vector of `b` entries broadcast to a `1 × b` row reads, at `(u, q)`, entry `q`. -/
theorem broadcastInDim_b_1b_apply {b : ℕ} (h : (⟨1, ![b]⟩ : Shape).BroadcastsInDim ⟨2, ![1, b]⟩ (![1] : Fin 1 → Fin 2))
    (x : (⟨1, ![b]⟩ : Shape).Idx → α) (u : Fin 1) (q : Fin b) : broadcastInDim ⟨2, ![1, b]⟩ ![1] h x (ix2 u q) = x (ix1 q) := by
  refine broadcastInDim_apply _ h x (ix2 u q) (ix1 q) fun ax => ?_
  match ax with
  | ⟨0, _⟩ =>
    show q.val = if b = 1 then 0 else q.val
    split
    · have := q.isLt; omega
    · rfl

/-- An `a × 1` column broadcast along `b` columns reads, at `(p, q)`, the column's entry `p`. -/
theorem broadcastInDim_a1_ab_apply {a b : ℕ} (h : (⟨2, ![a, 1]⟩ : Shape).BroadcastsInDim ⟨2, ![a, b]⟩ (![0, 1] : Fin 2 → Fin 2))
    (x : (⟨2, ![a, 1]⟩ : Shape).Idx → α) (p : Fin a) (q : Fin b) :
    broadcastInDim ⟨2, ![a, b]⟩ ![0, 1] h x (ix2 p q) = x (ix2 p (0 : Fin 1)) := by
  refine broadcastInDim_apply _ h x (ix2 p q) (ix2 p (0 : Fin 1)) fun ax => ?_
  match ax with
  | ⟨0, _⟩ =>
    show p.val = if a = 1 then 0 else p.val
    split
    · have := p.isLt; omega
    · rfl
  | ⟨1, _⟩ => rfl

/-- A `1 × b` row broadcast along `a` rows reads, at `(p, q)`, the row's entry `q`. -/
theorem broadcastInDim_1b_ab_apply {a b : ℕ} (h : (⟨2, ![1, b]⟩ : Shape).BroadcastsInDim ⟨2, ![a, b]⟩ (![0, 1] : Fin 2 → Fin 2))
    (x : (⟨2, ![1, b]⟩ : Shape).Idx → α) (p : Fin a) (q : Fin b) :
    broadcastInDim ⟨2, ![a, b]⟩ ![0, 1] h x (ix2 p q) = x (ix2 (0 : Fin 1) q) := by
  refine broadcastInDim_apply _ h x (ix2 p q) (ix2 (0 : Fin 1) q) fun ax => ?_
  match ax with
  | ⟨0, _⟩ => rfl
  | ⟨1, _⟩ =>
    show q.val = if b = 1 then 0 else q.val
    split
    · have := q.isLt; omega
    · rfl

end

end Cert.LibRowOps
-- ==== Proof.LibContractFirst.lean ====
/-
  A product that contracts the FIRST axis of both operands, read at an index.

  For an `n × a` matrix `l` and an `n × c` matrix `r`, contracting the first axis of each gives the `a × c` matrix
  whose entry `(p, q)` is the sum over `k` of `l (k, p) * r (k, q)`: the transpose of `l` times `r`, with no
  transpose ever formed.  The contraction's own index type is re-indexed by the shared coordinate `k`.
-/
import Idealize.ShloMosaic.Lib.ValueIdx
import Idealize.ShloMosaic.PureOps.Ideal.Laws

namespace Cert.LibContractFirst

open Idealize.ShloMosaic Idealize.ShloMosaic.ValueIdx

/-- The contraction's sum re-indexed by the shared first coordinate, when the operand indices at an output index
    `(p, q)` and a contraction position `k` are `(k, p)` and `(k, q)`. -/
theorem sum_contr_first {n a c : ℕ} (D : DotDims ⟨2, ![n, a]⟩ ⟨2, ![n, c]⟩ ⟨2, ![a, c]⟩) (hrk : D.contr.rank = 1)
    (hsz : D.contr.size ⟨0, by omega⟩ = n)
    (hl0 : ∀ j k, (D.lhsIdx j k (0 : Fin 2)).val = (k ⟨0, by omega⟩).val)
    (hl1 : ∀ j k, (D.lhsIdx j k (1 : Fin 2)).val = (j (0 : Fin 2)).val)
    (hr0 : ∀ j k, (D.rhsIdx j k (0 : Fin 2)).val = (k ⟨0, by omega⟩).val)
    (hr1 : ∀ j k, (D.rhsIdx j k (1 : Fin 2)).val = (j (1 : Fin 2)).val)
    (l : (⟨2, ![n, a]⟩ : Shape).Idx → EReal) (r : (⟨2, ![n, c]⟩ : Shape).Idx → EReal) (p : Fin a) (q : Fin c) :
    ∑ k : D.contr.Idx, l (D.lhsIdx (ix2 p q) k) * r (D.rhsIdx (ix2 p q) k) = ∑ k : Fin n, l (ix2 k p) * r (ix2 k q) := by
  rw [← Equiv.sum_comp (contrEquiv1 D n hrk hsz).symm]
  refine Finset.sum_congr rfl fun k _ => ?_
  have e1 : D.lhsIdx (ix2 p q) ((contrEquiv1 D n hrk hsz).symm k) = ix2 k p := by
    funext ax
    apply Fin.ext
    match ax with
    | ⟨0, _⟩ => exact (hl0 _ _).trans (contrEquiv1_symm_val D n hrk hsz k)
    | ⟨1, _⟩ => exact hl1 _ _
  have e2 : D.rhsIdx (ix2 p q) ((contrEquiv1 D n hrk hsz).symm k) = ix2 k q := by
    funext ax
    apply Fin.ext
    match ax with
    | ⟨0, _⟩ => exact (hr0 _ _).trans (contrEquiv1_symm_val D n hrk hsz k)
    | ⟨1, _⟩ => exact hr1 _ _
  rw [e1, e2]

end Cert.LibContractFirst
-- ==== Proof.Prep.lean ====
/-
  What the region finds in the two arrays the host prepares for it.

  Before the region the host builds, from the weight matrix `W`, the feature matrix `x` and the bias `b`:

  * a 128 × 512 weight block: the upper half of `W` (128 × 4) repeated 128 times side by side, so that column
    `q` of the block is column `q mod 4` of the upper half;
  * one bias row of 512 entries: the 128 × 4 matrix "feature part plus bias", laid out row after row, so that entry
    `q` is the feature part at `(q / 4, q mod 4)` plus `b (q mod 4)`.

  Each is a chain of layout steps (slice, reshape, broadcast, reshape) read at an index one step at a time; the only
  arithmetic is the position `q = 4·(q / 4) + q mod 4` in the row-major order.
-/
import proofs.«107261_j12541304504449_2_alg».proof.Proof.Gen.KernelIdeal.Frame
import proofs.«107261_j12541304504449_2_alg».proof.Proof.Spec
import proofs.«107261_j12541304504449_2_alg».proof.Proof.LibRowOps
import proofs.«107261_j12541304504449_2_alg».proof.Proof.LibContractFirst
import Idealize.ShloMosaic.Lib.StableHlo.Run
import Idealize.ShloMosaic.Lib.Pipeline.Value
import Idealize.ShloMosaic.Lib.ValueIdx

noncomputable section

namespace Cert.KernelIdeal.Prep

open Cert.KernelIdeal Cert.KernelIdeal.Gen Idealize.ShloMosaic Idealize.ShloMosaic.TcCoe Idealize.SL.Sem
open Idealize.ShloMosaic.ValueIdx Idealize.ShloMosaic.StableHlo Cert.Layer

/-! ## The layout chains, read at an index -/

/-- The tiled weight block at `(k, q)` is the upper half of `W` at `(k, q mod 4)`. -/
theorem tiled_apply {α : Type} (W : S256x4.Idx → α) (k : Fin 128) (q : Fin 512) :
    shapeCast S128x512 (broadcastInDim S1x128x128x4 ![0, 1, 2, 3] bcast_S1x128x1x4_S1x128x128x4_0_1_2_3
        (shapeCast S1x128x1x4 (extractStridedSlice S128x4 ![0, 0] W slices_S256x4_S128x4_0_0) shapeCasts_S128x4_S1x128x1x4))
      shapeCasts_S1x128x128x4_S128x512 (ix2 k q)
      = W (ix2 (upper k) ⟨q.val % 4, Nat.mod_lt _ (by decide)⟩) := by
  have hq : q.val < 512 := q.isLt
  have hk : k.val < 128 := k.isLt
  refine (shapeCast_apply _ shapeCasts_S1x128x128x4_S128x512 (ix2 k q)
    (ix4 (0 : Fin 1) k (⟨q.val / 4, by omega⟩ : Fin 128) (⟨q.val % 4, Nat.mod_lt _ (by decide)⟩ : Fin 4)) ?_).trans ?_
  · rw [Shape.rowMajor_val_four, Shape.rowMajor_val_two]
    show ((0 * 128 + k.val) * 128 + q.val / 4) * 4 + q.val % 4 = k.val * 512 + q.val
    omega
  refine (broadcastInDim_apply _ bcast_S1x128x1x4_S1x128x128x4_0_1_2_3 _ _
    (ix4 (0 : Fin 1) k (0 : Fin 1) (⟨q.val % 4, Nat.mod_lt _ (by decide)⟩ : Fin 4)) ?_).trans ?_
  · intro ax
    match ax with
    | ⟨0, _⟩ => rfl
    | ⟨1, _⟩ => rfl
    | ⟨2, _⟩ => rfl
    | ⟨3, _⟩ => rfl
  refine (shapeCast_apply _ shapeCasts_S128x4_S1x128x1x4 _ (ix2 k (⟨q.val % 4, Nat.mod_lt _ (by decide)⟩ : Fin 4)) ?_).trans ?_
  · rw [Shape.rowMajor_val_two, Shape.rowMajor_val_four]
    show k.val * 4 + q.val % 4 = ((0 * 128 + k.val) * 1 + 0) * 4 + q.val % 4
    omega
  exact extractStridedSlice_apply _ W slices_S256x4_S128x4_0_0 _ (ix2 (upper k) ⟨q.val % 4, Nat.mod_lt _ (by decide)⟩)
    (fun ax => by
      match ax with
      | ⟨0, _⟩ => show k.val = 0 + k.val; omega
      | ⟨1, _⟩ => show q.val % 4 = 0 + q.val % 4; omega)

/-- The contraction of the first axis of `x` with the first axis of the lower half of `W`, at `(j, h)`, is the
    feature part. -/
theorem featProduct_apply (x : S128x128.Idx → EReal) (W : S256x4.Idx → EReal) (j : Fin 128) (h : Fin 4) :
    Host.dotGeneral (F := Ideal) (φ₁ := .f32) (φ₂ := .f32) dot_S128x128_S128x4_S128x4_0_0_1_1_n_n none x
        (extractStridedSlice S128x4 ![128, 0] W slices_S256x4_S128x4_128_0) (ix2 j h)
      = featPart x W j h := by
  simp only [Host.dotGeneral]
  rw [Ideal.dotGeneral_apply]
  refine (Cert.LibContractFirst.sum_contr_first dot_S128x128_S128x4_S128x4_0_0_1_1_n_n rfl rfl
    (fun i k => dot_S128x128_S128x4_S128x4_0_0_1_1_n_n.lhsIdx_val_of_single rfl i k)
    (fun i k => by
      unfold DotDims.lhsIdx
      rw [dif_neg (show ¬(1 : Fin S128x128.rank) ∈ dot_S128x128_S128x4_S128x4_0_0_1_1_n_n.lhsBatch by decide),
        dif_pos (show (1 : Fin S128x128.rank) ∈ dot_S128x128_S128x4_S128x4_0_0_1_1_n_n.lhsNonContracting by decide)]
      rfl)
    (fun i k => dot_S128x128_S128x4_S128x4_0_0_1_1_n_n.rhsIdx_val_of_single rfl i k)
    (fun i k => by
      unfold DotDims.rhsIdx
      rw [dif_neg (show ¬(1 : Fin S128x4.rank) ∈ dot_S128x128_S128x4_S128x4_0_0_1_1_n_n.rhsBatch by decide),
        dif_pos (show (1 : Fin S128x4.rank) ∈ dot_S128x128_S128x4_S128x4_0_0_1_1_n_n.rhsNonContracting by decide)]
      rfl)
    x (extractStridedSlice S128x4 ![128, 0] W slices_S256x4_S128x4_128_0) j h).trans ?_
  unfold featPart
  refine Finset.sum_congr rfl fun k _ => congrArg (x (ix2 k j) * ·) ?_
  exact extractStridedSlice_apply _ W slices_S256x4_S128x4_128_0 _ (ix2 (lower k) h)
    (fun ax => by
      match ax with
      | ⟨0, _⟩ => rfl
      | ⟨1, _⟩ => show h.val = 0 + h.val; omega)

/-- The bias row at `q` is the feature part at `(q / 4, q mod 4)` plus the bias at `q mod 4`. -/
theorem biasRow_apply (x : S128x128.Idx → EReal) (W : S256x4.Idx → EReal) (b : S4.Idx → EReal) (q : Fin 512) :
    shapeCast S1x512 (addf (F := Ideal) (φ := .f32)
        (Host.dotGeneral (F := Ideal) (φ₁ := .f32) (φ₂ := .f32) dot_S128x128_S128x4_S128x4_0_0_1_1_n_n none x
          (extractStridedSlice S128x4 ![128, 0] W slices_S256x4_S128x4_128_0))
        (broadcastInDim S128x4 ![0, 1] bcast_S1x4_S128x4_0_1 (broadcastInDim S1x4 ![1] bcast_S4_S1x4_1 b)))
      shapeCasts_S128x4_S1x512 (ix2 (0 : Fin 1) q)
      = featPart x W ⟨q.val / 4, by have := q.isLt; omega⟩ ⟨q.val % 4, Nat.mod_lt _ (by decide)⟩
        + b (ix1 ⟨q.val % 4, Nat.mod_lt _ (by decide)⟩) := by
  have hq : q.val < 512 := q.isLt
  refine (shapeCast_apply _ shapeCasts_S128x4_S1x512 (ix2 (0 : Fin 1) q)
    (ix2 (⟨q.val / 4, by omega⟩ : Fin 128) (⟨q.val % 4, Nat.mod_lt _ (by decide)⟩ : Fin 4)) ?_).trans ?_
  · rw [Shape.rowMajor_val_two, Shape.rowMajor_val_two]
    show q.val / 4 * 4 + q.val % 4 = 0 * 512 + q.val
    omega
  rw [addf_apply]
  refine congrArg₂ (· + ·) (featProduct_apply x W _ _) ?_
  exact (Cert.LibRowOps.broadcastInDim_1b_ab_apply bcast_S1x4_S128x4_0_1 _ _ _).trans
    (Cert.LibRowOps.broadcastInDim_b_1b_apply bcast_S4_S1x4_1 b _ _)

/-! ## The arrays as the region finds them -/

variable {F : FTy → Type} [FloatOps F]
variable (m : (ℓ : Loc nD τ sig) → Buf (Elt F) ℓ)

/-- The weight array the region stages is the layout chain applied to `W` as launched. -/
theorem weights_found (c : Dev nD) :
    (V m c main_v9 : S128x512.Idx → Elt F .f32)
      = shapeCast S128x512 (broadcastInDim S1x128x128x4 ![0, 1, 2, 3] bcast_S1x128x1x4_S1x128x128x4_0_1_2_3
          (shapeCast S1x128x1x4 (extractStridedSlice S128x4 ![0, 0] (m ((c.tc : Thread nD τ).loc main_arg2)) slices_S256x4_S128x4_0_0)
            shapeCasts_S128x4_S1x128x1x4))
        shapeCasts_S1x128x128x4_S128x512 := by
  show StableHlo.after hostOps0 (fun b => m (c, b)) (Proc.devRef .tc main_v9) = _
  after_results
  rfl

/-- The bias array the region stages is the product, the bias spread over the rows, their sum, flattened. -/
theorem biasRow_found (c : Dev nD) :
    (V m c main_v6 : S1x512.Idx → Elt F .f32)
      = shapeCast S1x512 (addf (F := F) (φ := .f32)
          (Host.dotGeneral (F := F) dot_S128x128_S128x4_S128x4_0_0_1_1_n_n none (m ((c.tc : Thread nD τ).loc main_arg1))
            (extractStridedSlice S128x4 ![128, 0] (m ((c.tc : Thread nD τ).loc main_arg2)) slices_S256x4_S128x4_128_0))
          (broadcastInDim S128x4 ![0, 1] bcast_S1x4_S128x4_0_1 (broadcastInDim S1x4 ![1] bcast_S4_S1x4_1 (m ((c.tc : Thread nD τ).loc main_arg3)))))
        shapeCasts_S128x4_S1x512 := by
  show StableHlo.after hostOps0 (fun b => m (c, b)) (Proc.devRef .tc main_v6) = _
  after_results
  rfl

end Cert.KernelIdeal.Prep

end
-- ==== Proof.Blocks.lean ====
/-
  From blocks to the whole array.

  The grid has four points; point `t` stages rows `2048·t … 2048·t + 2047` of `z`, the whole weight block and the whole
  bias row, and writes back rows `2048·t … 2048·t + 2047` of the 8192 × 512 output.  What it writes back is that block
  of rows of ONE matrix, the flattened result `flat`: entry `(r, q)` of the stored block is

      max ( Σ_k z(2048·t + r, k)·W(k, q mod 4) + (featPart(q / 4, q mod 4) + b(q mod 4)) , 0 ),

  the product's sum read through the tiled weight block and the bias row through the host's preparation.  The four
  blocks of rows cover the array (row `n` lies in the block of point `n / 2048`), so the array ends holding `flat`.
-/
import proofs.«107261_j12541304504449_2_alg».proof.Proof.Gen.KernelIdeal.Frame
import proofs.«107261_j12541304504449_2_alg».proof.Proof.Spec
import proofs.«107261_j12541304504449_2_alg».proof.Proof.Body
import proofs.«107261_j12541304504449_2_alg».proof.Proof.Prep
import Idealize.ShloMosaic.Lib.Pipeline.Value
import Idealize.ShloMosaic.Lib.ValueIdx

noncomputable section

namespace Cert.KernelIdeal.Blocks

open Cert.KernelIdeal Cert.KernelIdeal.Gen Idealize.ShloMosaic Idealize.ShloMosaic.TcCoe Idealize.SL.Sem
open Idealize.ShloMosaic.ValueIdx Cert.Layer
open Idealize.ShloMosaic.Pipeline (Dat)

variable (m : (ℓ : Loc nD τ sig) → Buf (Elt Ideal) ℓ)

theorem zero_offsets : (![0, 0] : Fin 2 → Nat) = fun _ => 0 := funext fun a => by fin_cases a <;> rfl

/-- The block indices of the four windows at each grid point: the row block of `z` and of the output is the point's
    number; the weight block and the bias row are always block zero. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row `r` of point `t`'s block is row `2048·t + r` of the array. -/
abbrev rowAt (t : Fin cfg0.N) (r : Fin 2048) : Fin 8192 :=
  ⟨2048 * t.val + r.val, by have h1 := t.isLt; have hN : cfg0.N = 4 := N_0; have h2 := r.isLt; omega⟩

/-- The staged block of `z` at point `t` holds rows `2048·t …` of `z` as launched. -/
theorem nodeBlock_apply (c : Dev nD) (t : Fin cfg0.N) (r : Fin 2048) (k : Fin 128) :
    (iblk m c 0 t : Vec Ideal S2048x128 .f32) (ix2 r k)
      = (m ((c.tc : Thread nD τ).loc main_arg0) : S8192x128.Idx → EReal) (ix2 (rowAt t r) k) := by
  obtain ⟨e0, e1, -⟩ := block_indices t
  unfold iblk
  rw [View.read_apply]
  show V m c main_arg0 _ = _
  rw [V_main_arg0 m c]
  refine congrArg _ (funext fun a => Fin.ext ?_)
  match a with
  | ⟨0, _⟩ => show win0_0.index t (0 : Fin 2) * 2048 + 1 * r.val = 2048 * t.val + r.val; rw [e0]; omega
  | ⟨1, _⟩ => show win0_0.index t (1 : Fin 2) * 128 + 1 * k.val = k.val; rw [e1]; omega

/-- The staged weight block is the whole prepared weight array, at every point. -/
theorem weightBlock_apply (c : Dev nD) (t : Fin cfg0.N) (k : Fin 128) (q : Fin 512) :
    (iblk m c 1 t : Vec Ideal S128x512 .f32) (ix2 k q) = (V m c main_v9 : S128x512.Idx → EReal) (ix2 k q) := by
  obtain ⟨-, -, e2, e3, -⟩ := block_indices t
  unfold iblk
  rw [View.read_apply]
  show V m c main_v9 _ = _
  refine congrArg _ (funext fun a => Fin.ext ?_)
  match a with
  | ⟨0, _⟩ => show win0_1.index t (0 : Fin 2) * 128 + 1 * k.val = k.val; rw [e2]; omega
  | ⟨1, _⟩ => show win0_1.index t (1 : Fin 2) * 512 + 1 * q.val = q.val; rw [e3]; omega

/-- The staged bias row is the whole prepared bias row, at every point. -/
theorem biasBlock_apply (c : Dev nD) (t : Fin cfg0.N) (q : Fin 512) :
    (iblk m c 2 t : Vec Ideal S1x512 .f32) (ix2 (0 : Fin 1) q) = (V m c main_v6 : S1x512.Idx → EReal) (ix2 (0 : Fin 1) q) := by
  obtain ⟨-, -, -, -, e4, e5, -⟩ := block_indices t
  unfold iblk
  rw [View.read_apply]
  show V m c main_v6 _ = _
  refine congrArg _ (funext fun a => Fin.ext ?_)
  match a with
  | ⟨0, _⟩ => show win0_2.index t (0 : Fin 2) * 1 + 1 * 0 = 0; rw [e4]
  | ⟨1, _⟩ => show win0_2.index t (1 : Fin 2) * 512 + 1 * q.val = q.val; rw [e5]; omega

/-- The flattened result of the arguments as launched on core `c`. -/
abbrev flatOf (c : Dev nD) : S8192x512.Idx → EReal :=
  flat (m ((c.tc : Thread nD τ).loc main_arg0)) (m ((c.tc : Thread nD τ).loc main_arg1))
    (m ((c.tc : Thread nD τ).loc main_arg2)) (m ((c.tc : Thread nD τ).loc main_arg3))

/-- What point `t`'s body stores, at `(r, q)`, is the flattened result at `(2048·t + r, q)`. -/
theorem stored_entry (c : Dev nD) (t : Fin cfg0.N) (r : Fin 2048) (q : Fin 512) :
    k0_pay1 (F := Ideal) (iblk m c 0 t) (iblk m c 1 t) (iblk m c 2 t) (ix2 r q) = flatOf m c (ix2 (rowAt t r) q) := by
  show _ = max (nodePart (m ((c.tc : Thread nD τ).loc main_arg0)) (m ((c.tc : Thread nD τ).loc main_arg2)) (rowAt t r)
        ⟨q.val % 4, Nat.mod_lt _ (by decide)⟩
      + (featPart (m ((c.tc : Thread nD τ).loc main_arg1)) (m ((c.tc : Thread nD τ).loc main_arg2))
            ⟨q.val / 4, by have := q.isLt; omega⟩ ⟨q.val % 4, Nat.mod_lt _ (by decide)⟩
          + (m ((c.tc : Thread nD τ).loc main_arg3) : S4.Idx → EReal) (ix1 ⟨q.val % 4, Nat.mod_lt _ (by decide)⟩)))
    (Ideal.ofBits .f32 0x00000000#32)
  refine (Body.stored_apply _ _ _ r q).trans ?_
  rw [biasBlock_apply m c t q, Prep.biasRow_found m c, Prep.biasRow_apply]
  refine congrArg₂ max (congrArg (· + _) ?_) rfl
  unfold nodePart
  refine Finset.sum_congr rfl fun k _ => ?_
  rw [nodeBlock_apply m c t r k, weightBlock_apply m c t k q, Prep.weights_found m c, Prep.tiled_apply]

/-- WHAT POINT `t` WRITES BACK is block `t` of the flattened result. -/
theorem written_back (c : Dev nD) (t : Fin cfg0.N) :
    (dats m 0 c).flushed 3 t = ((cfg0.win 3).blk t).view.read (Elt Ideal) (flatOf m c) := by
  show (cfg0.win 3).cut (grid0.coords t) ((dats m 0 c).after 3 t) = _
  rw [after0_3]
  unfold out0_3
  rw [View.canon_unit_zero zero_offsets]
  simp only [View.ld_unit_zero (S := S2048x128) zero_offsets, View.ld_unit_zero (S := S128x512) zero_offsets,
    View.ld_unit_zero (S := S1x512) zero_offsets]
  obtain ⟨-, -, -, -, -, -, e6, e7⟩ := block_indices t
  funext y
  obtain ⟨r, q, rfl⟩ : ∃ (r : Fin 2048) (q : Fin 512), y = ix2 r q := ⟨y 0, y 1, eq_ix2 y⟩
  show k0_pay1 (F := Ideal) (iblk m c 0 t) (iblk m c 1 t) (iblk m c 2 t) (ix2 r q)
    = flatOf m c (((cfg0.win 3).blk t).view.emb (ix2 r q))
  have hemb : ((cfg0.win 3).blk t).view.emb (ix2 r q) = ix2 (rowAt t r) q := funext fun a => Fin.ext (by
    match a with
    | ⟨0, _⟩ => show win0_3.index t (0 : Fin 2) * 2048 + 1 * r.val = 2048 * t.val + r.val; rw [e6]; omega
    | ⟨1, _⟩ => show win0_3.index t (1 : Fin 2) * 512 + 1 * q.val = q.val; rw [e7]; omega)
  rw [hemb]
  exact stored_entry m c t r q

/-- An index of the output array is in point `t`'s block iff each coordinate is in the block's range on its axis. -/
theorem in_row_block (t : Fin cfg0.N) (i : S8192x512.Idx) :
    i ∈ ((cfg0.win 3).blk t).view.set ↔ ∀ a : Fin 2, win0_3.index t a * S2048x512.size a ≤ (i a).val
      ∧ (i a).val < win0_3.index t a * S2048x512.size a + S2048x512.size a := by
  show i ∈ ((View.whole main_v10).slice (win0_3.rect t)).set ↔ _
  rw [View.set_slice_whole, Rect.mem_set_unit]
  exact Iff.rfl

/-- THE ARRAY after the region: the flattened result (row `n` is written by point `n / 2048`). -/
theorem output_is_flat (c : Dev nD) : (dats m 0 c).arrAt 3 cfg0.N = flatOf m c :=
  (dats m 0 c).arrAt_eq_of_cover 3 (flatOf m c) (fun t _ => written_back m c t) (fun i => by
    have hi0 : (i 0).val < 8192 := (i 0).isLt
    have hi1 : (i 1).val < 512 := (i 1).isLt
    have hN : cfg0.N = 4 := N_0
    have hp : (i 0).val / 2048 < cfg0.N := by rw [hN]; omega
    obtain ⟨-, -, -, -, -, -, e6, e7⟩ := block_indices ⟨(i 0).val / 2048, hp⟩
    refine ⟨⟨(i 0).val / 2048, hp⟩, flush0_3 _, ?_⟩
    rw [in_row_block]
    intro a
    match a with
    | ⟨0, _⟩ =>
      show win0_3.index ⟨(i 0).val / 2048, hp⟩ (0 : Fin 2) * 2048 ≤ (i 0).val
        ∧ (i 0).val < win0_3.index ⟨(i 0).val / 2048, hp⟩ (0 : Fin 2) * 2048 + 2048
      rw [e6]
      show (i 0).val / 2048 * 2048 ≤ (i 0).val ∧ (i 0).val < (i 0).val / 2048 * 2048 + 2048
      omega
    | ⟨1, _⟩ =>
      show win0_3.index ⟨(i 0).val / 2048, hp⟩ (1 : Fin 2) * 512 ≤ (i 1).val
        ∧ (i 1).val < win0_3.index ⟨(i 0).val / 2048, hp⟩ (1 : Fin 2) * 512 + 512
      rw [e7]
      omega)

end Cert.KernelIdeal.Blocks

end
-- ==== Proof.Whole.lean ====
/-
  The kernel program's result.

  After the region the host views the 8192 × 512 output as 8192 × 128 × 4: entry `(n, j, h)` is entry `(n, 4·j + h)`
  of the flattened result, which is the layer's `result` at `(n, j, h)` (the one use of associativity of addition,
  in `flat_apply`).  The run of the whole program therefore ends with the result array at `result` of the arguments and
  the arguments unchanged.
-/
import proofs.«107261_j12541304504449_2_alg».proof.Proof.Gen.KernelIdeal.Frame
import proofs.«107261_j12541304504449_2_alg».proof.Proof.Spec
import proofs.«107261_j12541304504449_2_alg».proof.Proof.Blocks
import Idealize.ShloMosaic.Lib.StableHlo.Run
import Idealize.ShloMosaic.Lib.Pipeline.Value
import Idealize.ShloMosaic.Lib.ValueIdx

noncomputable section

namespace Cert.KernelIdeal.Whole

open Cert.KernelIdeal Cert.KernelIdeal.Gen Idealize.ShloMosaic Idealize.ShloMosaic.TcCoe Idealize.SL.Sem
open Idealize.ShloMosaic.ValueIdx Idealize.ShloMosaic.StableHlo Cert.Layer

/-- The flattened result viewed as 8192 × 128 × 4 is the result. -/
theorem unflatten (z : S8192x128.Idx → EReal) (x : S128x128.Idx → EReal) (W : S256x4.Idx → EReal) (b : S4.Idx → EReal) :
    shapeCast S8192x128x4 (flat z x W b) shapeCasts_S8192x512_S8192x128x4 = result z x W b := by
  funext i
  obtain ⟨n, j, h, rfl⟩ : ∃ (n : Fin 8192) (j : Fin 128) (h : Fin 4), i = ix3 n j h := ⟨i 0, i 1, i 2, eq_ix3 i⟩
  have hj : j.val < 128 := j.isLt
  have hh : h.val < 4 := h.isLt
  refine (shapeCast_apply _ shapeCasts_S8192x512_S8192x128x4 (ix3 n j h)
    (ix2 n (⟨j.val * 4 + h.val, by omega⟩ : Fin 512)) ?_).trans ?_
  · rw [Shape.rowMajor_val_two, Shape.rowMajor_val_three]
    show n.val * 512 + (j.val * 4 + h.val) = (n.val * 128 + j.val) * 4 + h.val
    omega
  exact flat_apply z x W b n j h _ rfl

variable (m : (ℓ : Loc nD τ sig) → Buf (Elt Ideal) ℓ) (ρ : Dev nD → PrngReg)

/-- The layer's result of the arguments as launched on core `c`. -/
abbrev resultOf (c : Dev nD) : S8192x128x4.Idx → EReal :=
  result (m ((c.tc : Thread nD τ).loc main_arg0)) (m ((c.tc : Thread nD τ).loc main_arg1))
    (m ((c.tc : Thread nD τ).loc main_arg2)) (m ((c.tc : Thread nD τ).loc main_arg3))

/-- The host's last step reads the region's output array, which holds the flattened result. -/
theorem result_found (c : Dev nD) :
    Pipeline.afterTail₀ cfgs (dats m) 0 (V0 m) [hostOps1] c main_v11 = resultOf m c := by
  unfold Pipeline.afterTail₀
  show StableHlo.after hostOps1 _ (Proc.devRef .tc main_v11) = _
  after_results
  refine Eq.trans ?_ (unflatten _ _ _ _)
  exact congrArg (fun X : S8192x512.Idx → EReal => shapeCast S8192x128x4 X shapeCasts_S8192x512_S8192x128x4)
    ((Pipeline.withArrays_arr spec0 launch0.win.arr_inj c _ _ 3).trans (Blocks.output_is_flat m c))

/-- Every weakly fair execution of the kernel program terminates with the result array at the layer's `result` of the
    arguments, and the arguments unchanged. -/
theorem run : θ_run defs (onTc (τ := τ) (main (F := Ideal))) ⟨m, fun _ => 0, ρ⟩ (fun r => ∀ c : Dev nD,
      r.2.mem ((c.tc : Thread nD τ).loc main_v11) = resultOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v11 (Pipeline.mem_restRefs_of main_v11 (by decide) (by decide))).trans (result_found m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Whole

end
-- ==== Proof.lean ====
/-
  The kernel and its reference compute one function.

  The layer takes a node matrix `z` (8192 × 128), a feature matrix `x` (128 × 128), a weight matrix `W` (256 × 4) and a
  bias `b` (4 entries); entry `(n, j, h)` of its result is

      max ( Σ_k z(n,k)·W(k,h) + Σ_k x(k,j)·W(128+k,h) + b(h) , 0 ).

  The reference forms the two sums, spreads them over the missing axes, adds them, adds the bias and clamps.
  The kernel program lets the host prepare a 128 × 512 weight block (the upper half of `W` repeated side by side) and one
  bias row of 512 entries (the second sum plus the bias, laid out row after row); its region multiplies blocks of 2048
  rows of `z` by the weight block, adds the bias row and clamps; the host views the 8192 × 512 output as 8192 × 128 × 4.
  At the exact values a change of float format is the identity and both products are plain sums, so the two programs
  differ only in bracketing, `p + (q + r)` against `(p + q) + r`, and addition of extended reals is associative: the
  precondition (finite inputs) is not used by the value claim.

  The three frame claims are the generated frames (the reference's is its generated run with the result dropped);
  the idealization rewrote nothing, so its claim is trivial.
-/
import proofs.«107261_j12541304504449_2_alg».proof.Defs
import proofs.«107261_j12541304504449_2_alg».proof.Proof.Gen.Kernel
import proofs.«107261_j12541304504449_2_alg».proof.Proof.Gen.Kernel.Skeleton
import proofs.«107261_j12541304504449_2_alg».proof.Proof.Gen.Kernel.Launch
import proofs.«107261_j12541304504449_2_alg».proof.Proof.Gen.Kernel.Points
import proofs.«107261_j12541304504449_2_alg».proof.Proof.Gen.Kernel.Frame
import proofs.«107261_j12541304504449_2_alg».proof.Proof.Gen.KernelIdeal
import proofs.«107261_j12541304504449_2_alg».proof.Proof.Gen.KernelIdeal.Skeleton
import proofs.«107261_j12541304504449_2_alg».proof.Proof.Gen.KernelIdeal.Launch
import proofs.«107261_j12541304504449_2_alg».proof.Proof.Gen.KernelIdeal.Points
import proofs.«107261_j12541304504449_2_alg».proof.Proof.Gen.KernelIdeal.Frame
import proofs.«107261_j12541304504449_2_alg».proof.Proof.Gen.ReferenceIdeal
import proofs.«107261_j12541304504449_2_alg».proof.Proof.Gen.Pre_finite_inputs
import proofs.«107261_j12541304504449_2_alg».proof.Proof.Gen.ReferenceIdeal.Run
import proofs.«107261_j12541304504449_2_alg».proof.Proof.Gen.ReferenceIdeal.Read
import proofs.«107261_j12541304504449_2_alg».proof.Proof.Reference
import proofs.«107261_j12541304504449_2_alg».proof.Proof.Whole
import Idealize.ShloMosaic.Adequacy
import Idealize.ShloMosaic.Init

noncomputable section

namespace Cert.Proof

open Idealize.ShloMosaic Idealize.SL.Sem

/-- The kernel program as printed runs, and leaves its arguments as they were. -/
theorem frame_kernel : Cert.frame_Kernel := fun m ρ _ => Cert.Kernel.Gen.frame m ρ

/-- So does the kernel program read at the exact values. -/
theorem frame_kernelIdeal : Cert.frame_KernelIdeal := fun m ρ _ => Cert.KernelIdeal.Gen.frame m ρ

/-- So does the reference: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- No operation was rewritten when the kernel was idealized. -/
theorem preserves : Cert.preserves_Kernel_KernelIdeal := trivial

/-- At the exact values both programs end with the layer's `result` of their arguments, and the arguments agree. -/
theorem algebraic : Cert.algebraic_KernelIdeal_ReferenceIdeal := by
  intro m ρ m' ρ' _ hagree
  refine ⟨fun c => Cert.KernelIdeal.Whole.resultOf m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v12_eq, Cert.ReferenceIdeal.Bridge.reference_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
